-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S131072x1024 : Shape := ⟨2, ![131072, 1024]⟩
abbrev S131072 : Shape := ⟨1, ![131072]⟩
abbrev S1024x131072 : Shape := ⟨2, ![1024, 131072]⟩
abbrev S1024 : Shape := ⟨1, ![1024]⟩
abbrev S8192 : Shape := ⟨1, ![8192]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S131072x1024 : S_.BroadcastsInDim S131072x1024 (![] : Fin 0 → Fin S131072x1024.rank)
  reducesTo_S131072x1024_S_d0_1 : S131072x1024.ReducesTo [0, 1] S_
  bcast_S_S131072 : S_.BroadcastsInDim S131072 (![] : Fin 0 → Fin S131072.rank)
  reducesTo_S131072_S_d0 : S131072.ReducesTo [0] S_
  bcast_S_S1024x131072 : S_.BroadcastsInDim S1024x131072 (![] : Fin 0 → Fin S1024x131072.rank)
  reducesTo_S1024x131072_S_d0_1 : S1024x131072.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x131072 1) : IVec S_ 1 :=
  let main_c_5 : IVec S_ 1 := constantI S_ 1 1#1
  let main_v17 : IVec S_ 1 := (fun x v => Host.reduce IntOp.andi x v reducesTo_S1024x131072_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x1024 .f32) (main_arg1 : FVec F S131072x1024 .f32) (main_arg2 : FVec F S131072 .f32) (main_arg3 : FVec F S1024x131072 .f32) (main_arg4 : FVec F S1024 .f32) (main_arg5 : IVec S8192 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S131072x1024 .f32 := Host.absf main_arg1
  let main_cst_0 : FVec F S_ .f32 := constant S_ .f32 0x7F800000#32
  let main_v5 : FVec F S131072x1024 .f32 := broadcastInDim S131072x1024 ![] bcast_S_S131072x1024 main_cst_0
  let main_v6 : IVec S131072x1024 1 := cmpf .olt main_v4 main_v5
  let main_c_1 : IVec S_ 1 := constantI S_ 1 1#1
  let main_v7 : IVec S_ 1 := (fun x v => Host.reduce IntOp.andi x v reducesTo_S131072x1024_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S1024x131072 .f32 := Host.absf main_arg3
  let main_cst_4 : FVec F S_ .f32 := constant S_ .f32 0x7F800000#32
  let main_v15 : FVec F S1024x131072 .f32 := broadcastInDim S1024x131072 ![] bcast_S_S1024x131072 main_cst_4
  let main_v16 : IVec S1024x131072 1 := cmpf .olt main_v14 main_v15
  fn_part1 (F := F) main_arg4 main_v13 main_v16
-- ==== Kernel.lean ====
abbrev S2048x1024 : Shape := ⟨2, ![2048, 1024]⟩
abbrev S131072x1024 : Shape := ⟨2, ![131072, 1024]⟩
abbrev S131072 : Shape := ⟨1, ![131072]⟩
abbrev S1024x131072 : Shape := ⟨2, ![1024, 131072]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x1024 : Shape := ⟨2, ![8192, 1024]⟩
abbrev S1024x8192 : Shape := ⟨2, ![1024, 8192]⟩
abbrev S1024x1024 : Shape := ⟨2, ![1024, 1024]⟩
abbrev S1x1024 : Shape := ⟨2, ![1, 1024]⟩

abbrev nBuf : Space → Nat
  | .hbm => 79
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S131072x1024, .f32⟩
  | .hbm, ⟨2, _⟩ => ⟨S131072, .f32⟩
  | .hbm, ⟨3, _⟩ => ⟨S1024x131072, .f32⟩
  | .hbm, ⟨4, _⟩ => ⟨S1024, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x1024, .f32⟩
  | .hbm, ⟨25, _⟩ => ⟨S8192x1024, .i1⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S1, .i32⟩
  | .hbm, ⟨61, _⟩ => ⟨S_, .i32⟩
  | .hbm, ⟨62, _⟩ => ⟨S8192x1, .i32⟩
  | .hbm, ⟨63, _⟩ => ⟨S8192x1, .i1⟩
  | .hbm, ⟨64, _⟩ => ⟨S1x1, .i32⟩
  | .hbm, ⟨65, _⟩ => ⟨S8192x1, .i32⟩
  | .hbm, ⟨66, _⟩ => ⟨S8192x1, .i1⟩
  | .hbm, ⟨67, _⟩ => ⟨S8192x1, .i1⟩
  | .hbm, ⟨68, _⟩ => ⟨S_, .i1⟩
  | .hbm, ⟨69, _⟩ => ⟨S8192, .i1⟩
  | .hbm, ⟨70, _⟩ => ⟨S1024x8192, .f32⟩
  | .hbm, ⟨71, _⟩ => ⟨S1024x8192, .i1⟩
  | .hbm, ⟨72, _⟩ => ⟨S_, .f32⟩
  | .hbm, ⟨73, _⟩ => ⟨S1024x8192, .f32⟩
  | .hbm, ⟨74, _⟩ => ⟨S1024x8192, .f32⟩
  | .hbm, ⟨75, _⟩ => ⟨S1024x8192, .bf16⟩
  | .hbm, ⟨76, _⟩ => ⟨S8192x1024, .bf16⟩
  | .hbm, ⟨77, _⟩ => ⟨S2048x1024, .bf16⟩
  | .hbm, ⟨78, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .bf16⟩
  | .local _ .vmem, ⟨7, _⟩ => ⟨S1024x1024, .bf16⟩
  | .local _ .vmem, ⟨8, _⟩ => ⟨S1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v2 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bitsLt_bf16_f32 : FTy.bits .bf16 < FTy.bits .f32
  bcast_S8192_S1024x8192_1 : S8192.BroadcastsInDim S1024x8192 (![1] : Fin 1 → Fin S1024x8192.rank)
  bcast_S_S1024x8192 : S_.BroadcastsInDim S1024x8192 (![] : Fin 0 → Fin S1024x8192.rank)
  transposes_S1024x8192_S8192x1024_1_0 : S1024x8192.Transposes [1, 0] S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  gather_S131072x1024_S8192x1_S8192x1024_1_0_n_n_0_1_11024_wf : GatherDims.WF S131072x1024 S8192x1 S8192x1024 [1] [0] [] [0] [] 1 ![1, 1024]
  gather_S131072_S8192x1_S8192_n_0_n_n_0_1_1_wf : GatherDims.WF S131072 S8192x1 S8192 [] [0] [] [0] [] 1 ![1]
  gather_S1024x131072_S8192x1_S1024x8192_0_1_n_n_1_1_10241_wf : GatherDims.WF S1024x131072 S8192x1 S1024x8192 [0] [1] [] [1] [] 1 ![1024, 1]
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S2048x1024.size a
  hwx0_5 : ∀ i : grid0.Coords, EltTy.bits .f32 = 32 ∨ (Rect.block (s := S2048x1024) S1024x1024.size (cc0_transform_5 i) (hinb0_5 i)).WholeWords (EltTy.packing .f32)

variable [Facts₀]

def gather_S131072x1024_S8192x1_S8192x1024_1_0_n_n_0_1_11024 : GatherDims S131072x1024 S8192x1 S8192x1024 where
  offsetDims := [1]
  collapsedSliceDims := [0]
  operandBatchingDims := []
  startIndicesBatchingDims := []
  startIndexMap := [0]
  indexVectorDim := 1
  sliceSizes := ![1, 1024]
  wf := gather_S131072x1024_S8192x1_S8192x1024_1_0_n_n_0_1_11024_wf
def gather_S131072_S8192x1_S8192_n_0_n_n_0_1_1 : GatherDims S131072 S8192x1 S8192 where
  offsetDims := []
  collapsedSliceDims := [0]
  operandBatchingDims := []
  startIndicesBatchingDims := []
  startIndexMap := [0]
  indexVectorDim := 1
  sliceSizes := ![1]
  wf := gather_S131072_S8192x1_S8192_n_0_n_n_0_1_1_wf
def gather_S1024x131072_S8192x1_S1024x8192_0_1_n_n_1_1_10241 : GatherDims S1024x131072 S8192x1 S1024x8192 where
  offsetDims := [0]
  collapsedSliceDims := [1]
  operandBatchingDims := []
  startIndicesBatchingDims := []
  startIndexMap := [1]
  indexVectorDim := 1
  sliceSizes := ![1024, 1]
  wf := gather_S1024x131072_S8192x1_S1024x8192_0_1_n_n_1_1_10241_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S131072x1024 : Shape := ⟨2, ![131072, 1024]⟩
abbrev S131072 : Shape := ⟨1, ![131072]⟩
abbrev S1024x131072 : Shape := ⟨2, ![1024, 131072]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x1024 : Shape := ⟨2, ![8192, 1024]⟩
abbrev S2048x8192 : Shape := ⟨2, ![2048, 8192]⟩
abbrev S1x8192 : Shape := ⟨2, ![1, 8192]⟩
abbrev S1024x8192 : Shape := ⟨2, ![1024, 8192]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S131072x1024, .f32⟩
  | .hbm, ⟨2, _⟩ => ⟨S131072, .f32⟩
  | .hbm, ⟨3, _⟩ => ⟨S1024x131072, .f32⟩
  | .hbm, ⟨4, _⟩ => ⟨S1024, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x1024, .f32⟩
  | .hbm, ⟨25, _⟩ => ⟨S8192x1024, .i1⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S1x1, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i1⟩
  | .hbm, ⟨46, _⟩ => ⟨S8192, .i1⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S2048x8192, .f32⟩
  | .hbm, ⟨52, _⟩ => ⟨S1x8192, .f32⟩
  | .hbm, ⟨53, _⟩ => ⟨S2048x8192, .f32⟩
  | .hbm, ⟨54, _⟩ => ⟨S2048x8192, .f32⟩
  | .hbm, ⟨55, _⟩ => ⟨S_, .f32⟩
  | .hbm, ⟨56, _⟩ => ⟨S2048x8192, .f32⟩
  | .hbm, ⟨57, _⟩ => ⟨S2048x8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S1, .i32⟩
  | .hbm, ⟨67, _⟩ => ⟨S_, .i32⟩
  | .hbm, ⟨68, _⟩ => ⟨S8192x1, .i32⟩
  | .hbm, ⟨69, _⟩ => ⟨S8192x1, .i1⟩
  | .hbm, ⟨70, _⟩ => ⟨S1x1, .i32⟩
  | .hbm, ⟨71, _⟩ => ⟨S8192x1, .i32⟩
  | .hbm, ⟨72, _⟩ => ⟨S8192x1, .i1⟩
  | .hbm, ⟨73, _⟩ => ⟨S8192x1, .i1⟩
  | .hbm, ⟨74, _⟩ => ⟨S_, .i1⟩
  | .hbm, ⟨75, _⟩ => ⟨S8192, .i1⟩
  | .hbm, ⟨76, _⟩ => ⟨S1024x8192, .f32⟩
  | .hbm, ⟨77, _⟩ => ⟨S1024x8192, .i1⟩
  | .hbm, ⟨78, _⟩ => ⟨S_, .f32⟩
  | .hbm, ⟨79, _⟩ => ⟨S1024x8192, .f32⟩
  | .hbm, ⟨80, _⟩ => ⟨S1024x8192, .f32⟩
  | .hbm, ⟨81, _⟩ => ⟨S2048x1024, .f32⟩
  | .hbm, ⟨82, _⟩ => ⟨S1x1024, .f32⟩
  | .hbm, ⟨83, _⟩ => ⟨S2048x1024, .f32⟩
  | .hbm, ⟨84, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_call2_cst : Ref sig .tc := ⟨.hbm, 55, rfl⟩
abbrev main_call2_v0 : Ref sig .tc := ⟨.hbm, 56, rfl⟩
abbrev main_v6 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  bcast_S_S2048x8192 : S_.BroadcastsInDim S2048x8192 (![] : Fin 0 → Fin S2048x8192.rank)
  bcast_S8192_S1024x8192_1 : S8192.BroadcastsInDim S1024x8192 (![1] : Fin 1 → Fin S1024x8192.rank)
  bcast_S_S1024x8192 : S_.BroadcastsInDim S1024x8192 (![] : Fin 0 → Fin S1024x8192.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  gather_S131072x1024_S8192x1_S8192x1024_1_0_n_n_0_1_11024_wf : GatherDims.WF S131072x1024 S8192x1 S8192x1024 [1] [0] [] [0] [] 1 ![1, 1024]
  gather_S131072_S8192x1_S8192_n_0_n_n_0_1_1_wf : GatherDims.WF S131072 S8192x1 S8192 [] [0] [] [0] [] 1 ![1]
  dot_S2048x1024_S8192x1024_S2048x8192_1_1_0_0_n_n_wf : DotDims.WF S2048x1024 S8192x1024 S2048x8192 [1] [1] [0] [0] [] []
  gather_S1024x131072_S8192x1_S1024x8192_0_1_n_n_1_1_10241_wf : GatherDims.WF S1024x131072 S8192x1 S1024x8192 [0] [1] [] [1] [] 1 ![1024, 1]
  dot_S2048x8192_S1024x8192_S2048x1024_1_1_0_0_n_n_wf : DotDims.WF S2048x8192 S1024x8192 S2048x1024 [1] [1] [0] [0] [] []

variable [Facts₀]

def gather_S131072x1024_S8192x1_S8192x1024_1_0_n_n_0_1_11024 : GatherDims S131072x1024 S8192x1 S8192x1024 where
  offsetDims := [1]
  collapsedSliceDims := [0]
  operandBatchingDims := []
  startIndicesBatchingDims := []
  startIndexMap := [0]
  indexVectorDim := 1
  sliceSizes := ![1, 1024]
  wf := gather_S131072x1024_S8192x1_S8192x1024_1_0_n_n_0_1_11024_wf
def gather_S131072_S8192x1_S8192_n_0_n_n_0_1_1 : GatherDims S131072 S8192x1 S8192 where
  offsetDims := []
  collapsedSliceDims := [0]
  operandBatchingDims := []
  startIndicesBatchingDims := []
  startIndexMap := [0]
  indexVectorDim := 1
  sliceSizes := ![1]
  wf := gather_S131072_S8192x1_S8192_n_0_n_n_0_1_1_wf
def dot_S2048x1024_S8192x1024_S2048x8192_1_1_0_0_n_n : DotDims S2048x1024 S8192x1024 S2048x8192 where
  lhsContracting := [1]
  rhsContracting := [1]
  lhsNonContracting := [0]
  rhsNonContracting := [0]
  lhsBatch := []
  rhsBatch := []
  wf := dot_S2048x1024_S8192x1024_S2048x8192_1_1_0_0_n_n_wf
def gather_S1024x131072_S8192x1_S1024x8192_0_1_n_n_1_1_10241 : GatherDims S1024x131072 S8192x1 S1024x8192 where
  offsetDims := [0]
  collapsedSliceDims := [1]
  operandBatchingDims := []
  startIndicesBatchingDims := []
  startIndexMap := [1]
  indexVectorDim := 1
  sliceSizes := ![1024, 1]
  wf := gather_S1024x131072_S8192x1_S1024x8192_0_1_n_n_1_1_10241_wf
def dot_S2048x8192_S1024x8192_S2048x1024_1_1_0_0_n_n : DotDims S2048x8192 S1024x8192 S2048x1024 where
  lhsContracting := [1]
  rhsContracting := [1]
  lhsNonContracting := [0]
  rhsNonContracting := [0]
  lhsBatch := []
  rhsBatch := []
  wf := dot_S2048x8192_S1024x8192_S2048x1024_1_1_0_0_n_n_wf

class Facts : Prop extends Facts₀ where

variable [Facts]
-- ==== Proof.KPieces.lean ====
/-
  What one grid point leaves behind, as arithmetic.

  The body keeps a running [1024, 1024] block in a scratch. At the first point of a row of the grid it stores the zero
  block there and then adds this point's tile product to it; at every other point it adds the tile product to what the
  point before left; at the last point of the row it also stores the scratch plus the output bias into the output block.
  Each store covers its buffer whole, so what a buffer holds afterwards is the stored value itself.
-/
import proofs.«163091_j11536282157422_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A middle point: the scratch ends at the old scratch plus the tile product. -/
theorem scratch_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .bf16) (x2 : Vec F S1024 .f32) (x3 : Vec F S1024x1024 .bf16) (x4 : Vec F S1024 .f32) (xs0 : Vec F S1024x1024 .f32) :
    sout0_B_0 c i arg2 harg2 arg3 harg3 arg4 harg4 arg5 harg5 arg6 harg6 arg7 harg7 arg8 harg8 hc0 hc1 x0 x1 x2 x3 x4 xs0 = k0_pay2 x0 x1 x2 xs0 x3 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S1024x1024) hz2, View.ld_unit_zero (S := S1024) hz1]

/-- The last point of a row: the scratch again ends at the old scratch plus the tile product … -/
theorem scratch_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .bf16) (x2 : Vec F S1024 .f32) (x3 : Vec F S1024x1024 .bf16) (x4 : Vec F S1024 .f32) (xs0 : Vec F S1024x1024 .f32) :
    sout0_C_0 c i arg2 harg2 arg3 harg3 arg4 harg4 arg5 harg5 arg6 harg6 arg7 harg7 arg8 harg8 hc0 hc1 x0 x1 x2 x3 x4 xs0 = k0_pay2 x0 x1 x2 xs0 x3 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S1024x1024) hz2, View.ld_unit_zero (S := S1024) hz1]

/-- … and the output block is that sum plus the output bias, row by row. -/
theorem out_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .bf16) (x2 : Vec F S1024 .f32) (x3 : Vec F S1024x1024 .bf16) (x4 : Vec F S1024 .f32) (xs0 : Vec F S1024x1024 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 xs0 x3) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S1024x1024) _ hz2]
  simp only [View.readAt_eq_ld, harg2.read_unread, harg3.read_unread, harg4.read_unread, harg5.read_unread, harg6.read_unread, harg8.read_unread, View.ld_unit_zero (S := S1024x1024) hz2, View.ld_unit_zero (S := S1024) hz1]

/-- The first point of a row: the scratch ends at the zero block plus the tile product. -/
theorem scratch_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .bf16) (x2 : Vec F S1024 .f32) (x3 : Vec F S1024x1024 .bf16) (x4 : Vec F S1024 .f32) :
    sout0_A_0 c i arg2 harg2 arg3 harg3 arg4 harg4 arg5 harg5 arg6 harg6 arg7 harg7 arg8 harg8 hc0 hc1 x0 x1 x2 x3 x4 = k0_pay2 x0 x1 x2 (k0_pay1 (F := F)) x3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg5.read_unread, harg6.read_unread, harg8.read_unread, View.ld_unit_zero (S := S1024x1024) hz2, View.ld_unit_zero (S := S1024) hz1]

end Cert.KernelIdeal.Pieces

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KPayload.lean ====
/-
  The body's arithmetic read at an entry, on the extended reals.

  With `x` the [1024, 1024] tile of the input rows, `w` the tile of sampled hidden rows, `b` the tile of sampled hidden
  biases and `u` the tile of sampled output columns (laid out sample by class), one point adds to the running block, at
  (r, c),   ∑ s < 1024, max (∑ d < 1024, x[r, d] · w[s, d] + b[s]) 0 · u[s, c];
  rounding the rectified tile to a narrower float format changes nothing at this instance.
-/
import proofs.«163091_j11536282157422_2_alg».proof.Proof.Gen.KernelIdeal.Skeleton
import proofs.«163091_j11536282157422_2_alg».proof.Proof.LibPlainDot
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

variable [Cert.KernelIdeal.Facts]

/-- The first product of the body: rows of `x` against rows of `w`. -/
theorem rows_by_rows (x w : FVec Ideal S1024x1024 .bf16) (r s : Fin 1024) :
    matmul dot_S1024x1024_S1024x1024_S1024x1024_1_1_0_0_n_n none x w (constant S1024x1024 .f32 0x00000000#32) (ix2 r s)
      = ∑ d : Fin 1024, x (ix2 r d) * w (ix2 s d) :=
  Cert.LibPlainDot.matmul_zero_apply dot_S1024x1024_S1024x1024_S1024x1024_1_1_0_0_n_n none 1024 rfl rfl x w (ix2 r s)
    (fun d => ix2 r d) (fun d => ix2 s d)
    (fun q => Cert.LibPlainDot.ext2 _ _ rfl rfl)
    (fun q => Cert.LibPlainDot.ext2 _ _ rfl rfl)

/-- The second product of the body: rows of `h` against columns of `u`. -/
theorem rows_by_cols (h u : FVec Ideal S1024x1024 .bf16) (r c : Fin 1024) :
    matmul dot_S1024x1024_S1024x1024_S1024x1024_1_0_0_1_n_n none h u (constant S1024x1024 .f32 0x00000000#32) (ix2 r c)
      = ∑ s : Fin 1024, h (ix2 r s) * u (ix2 s c) :=
  Cert.LibPlainDot.matmul_zero_apply dot_S1024x1024_S1024x1024_S1024x1024_1_0_0_1_n_n none 1024 rfl rfl h u (ix2 r c)
    (fun s => ix2 r s) (fun s => ix2 s c)
    (fun q => Cert.LibPlainDot.ext2 _ _ rfl rfl)
    (fun q => Cert.LibPlainDot.ext2 _ _ rfl rfl)

/-- The rectified affine tile at (r, s). -/
def hid (x w : FVec Ideal S1024x1024 .bf16) (b : FVec Ideal S1024 .f32) (r s : Fin 1024) : EReal :=
  max ((∑ d : Fin 1024, x (ix2 r d) * w (ix2 s d)) + b (ix1 s)) (Ideal.ofBits .f32 0x00000000#32)

/-- The block the first point of a row stores first: zero everywhere. -/
theorem zero_apply (r c : Fin 1024) : k0_pay1 (F := Ideal) (ix2 r c) = 0 := by
  unfold k0_pay1
  rw [shapeCast_self]
  exact Ideal.ofBits_zero_f32

/-- A row of biases laid over the rows of a block. -/
theorem bias_rows (b : FVec Ideal S1024 .f32) (r s : Fin 1024) :
    broadcastTo S1024x1024 (shapeCast S1x1024 b shapeCasts_S1024_S1x1024) broadcasts_S1x1024_S1024x1024 (ix2 r s) = b (ix1 s) :=
  (broadcastTo_1b_ab_apply _ broadcasts_S1x1024_S1024x1024 r s).trans (shapeCast_a_1a_apply b shapeCasts_S1024_S1x1024 0 s)

/-- What a point adds to the running block. -/
theorem step_apply (x w : FVec Ideal S1024x1024 .bf16) (b : FVec Ideal S1024 .f32) (acc : FVec Ideal S1024x1024 .f32)
    (u : FVec Ideal S1024x1024 .bf16) (r c : Fin 1024) :
    k0_pay2 (F := Ideal) x w b acc u (ix2 r c) = acc (ix2 r c) + ∑ s : Fin 1024, hid x w b r s * u (ix2 s c) := by
  unfold k0_pay2
  simp only [shapeCast_self]
  refine congrArg (acc (ix2 r c) + ·) ?_
  refine (rows_by_cols _ u r c).trans ?_
  refine Finset.sum_congr rfl fun s _ => congrArg (· * u (ix2 s c)) ?_
  show max (_ + _) _ = _
  unfold hid
  rw [rows_by_rows, bias_rows]
  rfl

/-- What the last point of a row stores into the output block. -/
theorem last_apply (acc : FVec Ideal S1024x1024 .f32) (bo : FVec Ideal S1024 .f32) (r c : Fin 1024) :
    k0_pay3 (F := Ideal) acc bo (ix2 r c) = acc (ix2 r c) + bo (ix1 c) := by
  unfold k0_pay3
  exact congrArg (acc (ix2 r c) + ·) (bias_rows bo r c)

end Cert.KernelIdeal.Payload

end
-- ==== Proof.TileSum.lean ====
/-
  A sum over s < 8192 cut into eight consecutive stretches of 1024 terms, and the two ways a tile coordinate sits in
  its array: row r of row-tile i is row 1024·i + r, sample s of sample-tile k is sample 1024·k + s.
-/
import Mathlib

namespace Cert.TileSum

/-- Row `r` of row-tile `i` (of two). -/
def rowOf (i : ℕ) (r : Fin 1024) : Fin 2048 := ⟨1024 * (i % 2) + r.val, by have := r.isLt; omega⟩

/-- Sample `s` of sample-tile `k` (of eight). -/
def smpOf (k : ℕ) (s : Fin 1024) : Fin 8192 := ⟨1024 * (k % 8) + s.val, by have := s.isLt; omega⟩

/-- Summing tile by tile is summing over all samples. -/
theorem sum_tiles {M : Type*} [AddCommMonoid M] (f : Fin 8192 → M) :
    ∑ k ∈ Finset.range 8, ∑ s : Fin 1024, f (smpOf k s) = ∑ s : Fin 8192, f s := by
  rw [← Fin.sum_univ_eq_sum_range (fun k => ∑ s : Fin 1024, f (smpOf k s)) 8]
  rw [← Equiv.sum_comp (finProdFinEquiv (m := 8) (n := 1024)) f, Fintype.sum_prod_type]
  refine Finset.sum_congr rfl fun a _ => Finset.sum_congr rfl fun b _ => congrArg f (Fin.ext ?_)
  show 1024 * (a.val % 8) + b.val = b.val + 1024 * a.val
  have := a.isLt; omega

/-- Every row is a row of one of the two row-tiles. -/
theorem rowOf_div_mod (n : Fin 2048) : rowOf (n.val / 1024) ⟨n.val % 1024, Nat.mod_lt _ (by norm_num)⟩ = n := by
  apply Fin.ext
  show 1024 * (n.val / 1024 % 2) + n.val % 1024 = n.val
  have := n.isLt; omega

end Cert.TileSum
-- ==== Proof.KBlocks.lean ====
/-
  Each input window's block at a grid point, read off its array.

  The grid is 2 × 8, walked row-major: point t is row-tile t / 8, sample-tile t % 8. The block of the input rows at t is
  rows 1024·(t / 8) … of the row array; the blocks of the sampled hidden rows, of the sampled hidden biases and of the
  sampled output columns at t are samples 1024·(t % 8) … of theirs; the output bias has one block, the whole vector.
-/
import proofs.«163091_j11536282157422_2_alg».proof.Proof.Gen.KernelIdeal.Frame
import proofs.«163091_j11536282157422_2_alg».proof.Proof.TileSum
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.TileSum

variable {F : FTy → Type} [FloatOps F]
variable (m : (ℓ : Loc nD τ sig) → Buf (Elt F) ℓ)

/-- The printed index maps over the grid: the row-tile index is t / 8, the sample-tile index t % 8. -/
theorem idx_facts : ∀ t : Fin cfg0.N, win0_0.index t 0 = t.val / 8 ∧ win0_0.index t 1 = 0
    ∧ win0_1.index t 0 = t.val % 8 ∧ win0_1.index t 1 = 0
    ∧ win0_2.index t 0 = t.val % 8
    ∧ win0_3.index t 0 = t.val % 8 ∧ win0_3.index t 1 = 0
    ∧ win0_4.index t 0 = 0
    ∧ win0_5.index t 0 = t.val / 8 ∧ win0_5.index t 1 = 0 :=
  (by decide +kernel : ∀ t : Fin grid0.N, _)

/-- The block of input rows. -/
theorem blk_x (c : Dev nD) (t : Fin cfg0.N) (r d : Fin 1024) :
    (iblk m c 0 t : Vec F S1024x1024 .bf16) (ix2 r d) = V m c main_v6 (ix2 (rowOf (t.val / 8) r) d) := by
  obtain ⟨e0, e1, -⟩ := idx_facts t
  have hN : t.val < 16 := lt_of_lt_of_eq t.isLt N_0
  unfold iblk
  rw [View.read_apply]
  show V m c main_v6 _ = V m c main_v6 _
  refine congrArg (V m c main_v6) (funext fun a => Fin.ext ?_)
  match a with
  | ⟨0, _⟩ =>
    show win0_0.index t 0 * 1024 + 1 * r.val = 1024 * (t.val / 8 % 2) + r.val
    rw [e0]; omega
  | ⟨1, _⟩ =>
    show win0_0.index t 1 * 1024 + 1 * d.val = d.val
    rw [e1]; omega

/-- The block of sampled hidden rows. -/
theorem blk_w (c : Dev nD) (t : Fin cfg0.N) (s d : Fin 1024) :
    (iblk m c 1 t : Vec F S1024x1024 .bf16) (ix2 s d) = V m c main_v1 (ix2 (smpOf (t.val % 8) s) d) := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ =>
    show win0_1.index t 0 * 1024 + 1 * s.val = 1024 * (t.val % 8 % 8) + s.val
    rw [e0]; omega
  | ⟨1, _⟩ =>
    show win0_1.index t 1 * 1024 + 1 * d.val = d.val
    rw [e1]; omega

/-- The block of sampled hidden biases. -/
theorem blk_b (c : Dev nD) (t : Fin cfg0.N) (s : Fin 1024) :
    (iblk m c 2 t : Vec F S1024 .f32) (ix1 s) = V m c main_v2 (ix1 (smpOf (t.val % 8) s)) := by
  obtain ⟨-, -, -, -, e0, -⟩ := idx_facts t
  unfold iblk
  rw [View.read_apply]
  show V m c main_v2 _ = V m c main_v2 _
  refine congrArg (V m c main_v2) (funext fun a => Fin.ext ?_)
  match a with
  | ⟨0, _⟩ =>
    show win0_2.index t 0 * 1024 + 1 * s.val = 1024 * (t.val % 8 % 8) + s.val
    rw [e0]; omega

/-- The block of sampled output columns, laid out sample by class. -/
theorem blk_u (c : Dev nD) (t : Fin cfg0.N) (s k : Fin 1024) :
    (iblk m c 3 t : Vec F S1024x1024 .bf16) (ix2 s k) = V m c main_v5 (ix2 (smpOf (t.val % 8) s) k) := by
  obtain ⟨-, -, -, -, -, e0, e1, -⟩ := idx_facts t
  unfold iblk
  rw [View.read_apply]
  show V m c main_v5 _ = V m c main_v5 _
  refine congrArg (V m c main_v5) (funext fun a => Fin.ext ?_)
  match a with
  | ⟨0, _⟩ =>
    show win0_3.index t 0 * 1024 + 1 * s.val = 1024 * (t.val % 8 % 8) + s.val
    rw [e0]; omega
  | ⟨1, _⟩ =>
    show win0_3.index t 1 * 1024 + 1 * k.val = k.val
    rw [e1]; omega

/-- The one block of the output bias. -/
theorem blk_o (c : Dev nD) (t : Fin cfg0.N) (k : Fin 1024) :
    (iblk m c 4 t : Vec F S1024 .f32) (ix1 k) = V m c main_arg4 (ix1 k) := by
  obtain ⟨-, -, -, -, -, -, -, e0, -⟩ := idx_facts t
  unfold iblk
  rw [View.read_apply]
  show V m c main_arg4 _ = V m c main_arg4 _
  refine congrArg (V m c main_arg4) (funext fun a => Fin.ext ?_)
  match a with
  | ⟨0, _⟩ =>
    show win0_4.index t 0 * 1024 + 1 * k.val = k.val
    rw [e0]; omega

end Cert.KernelIdeal.Blocks

end
-- ==== Proof.Spec.lean ====
/-
  The function both programs compute, entry by entry.

  With `A` the sampled rows of the hidden weights ([8192, 1024]), `b` the sampled hidden biases ([8192]), `B` the sampled
  columns of the output weights ([1024, 8192]) and `bo` the output bias ([1024]), the entry (n, c) of the result is

      (∑ s < 8192, max (∑ d < 1024, X[n, d] · A[s, d] + b[s]) 0 · B[c, s]) + bo[c]

  on the extended reals. The zero of the rectifier is kept as the float word both programs spell it with.
-/
import Idealize.ShloMosaic.PureOps.Ideal
import Idealize.ShloMosaic.Lib.ValueIdx

noncomputable section

namespace Cert.Spec

open Idealize.ShloMosaic Idealize.ShloMosaic.ValueIdx

/-- The hidden activation at (n, s): the rectified affine form of row `n` of `X` against sampled row `s`. -/
def hidden (X : (⟨2, ![2048, 1024]⟩ : Shape).Idx → EReal) (A : (⟨2, ![8192, 1024]⟩ : Shape).Idx → EReal)
    (b : (⟨1, ![8192]⟩ : Shape).Idx → EReal) (n : Fin 2048) (s : Fin 8192) : EReal :=
  max ((∑ d : Fin 1024, X (ix2 n d) * A (ix2 s d)) + b (ix1 s)) (Ideal.ofBits .f32 0x00000000#32)

/-- The entry (n, c) of the result. -/
def entry (X : (⟨2, ![2048, 1024]⟩ : Shape).Idx → EReal) (A : (⟨2, ![8192, 1024]⟩ : Shape).Idx → EReal)
    (b : (⟨1, ![8192]⟩ : Shape).Idx → EReal) (B : (⟨2, ![1024, 8192]⟩ : Shape).Idx → EReal)
    (bo : (⟨1, ![1024]⟩ : Shape).Idx → EReal) (n : Fin 2048) (c : Fin 1024) : EReal :=
  (∑ s : Fin 8192, hidden X A b n s * B (ix2 c s)) + bo (ix1 c)

/-- The whole result array. -/
def out (X : (⟨2, ![2048, 1024]⟩ : Shape).Idx → EReal) (A : (⟨2, ![8192, 1024]⟩ : Shape).Idx → EReal)
    (b : (⟨1, ![8192]⟩ : Shape).Idx → EReal) (B : (⟨2, ![1024, 8192]⟩ : Shape).Idx → EReal)
    (bo : (⟨1, ![1024]⟩ : Shape).Idx → EReal) : (⟨2, ![2048, 1024]⟩ : Shape).Idx → EReal :=
  fun i => entry X A b B bo (i 0) (i 1)

end Cert.Spec

end
-- ==== Proof.KAccum.lean ====
/-
  What the running block and the output block hold after each grid point.

  After point t = 8·i + k the scratch holds, at (r, q), the sum of the tile products of sample-tiles 0 … k of row-tile
  i; by induction on the point: the first point of a row starts from the zero block, every other point adds its tile
  product to what the point before left. After the last point of a row (k = 7) the output block is that sum of all eight
  tile products plus the output bias.
-/
import proofs.«163091_j11536282157422_2_alg».proof.Proof.KPieces
import proofs.«163091_j11536282157422_2_alg».proof.Proof.KPayload
import proofs.«163091_j11536282157422_2_alg».proof.Proof.KBlocks
import proofs.«163091_j11536282157422_2_alg».proof.Proof.Spec

noncomputable section

open Idealize.ShloMosaic Idealize.ShloMosaic.TcCoe Idealize.SL.Sem Idealize.ShloMosaic.ValueIdx

namespace Cert.KernelIdeal.Accum

open Cert.KernelIdeal Cert.KernelIdeal.Gen Cert.TileSum

variable (m : (ℓ : Loc nD τ sig) → Buf (Elt Ideal) ℓ)

/-- The tile product of row-tile `i` and sample-tile `k` at (r, q), over the arrays as the region finds them. -/
def tile (c : Dev nD) (i k : ℕ) (r q : Fin 1024) : EReal :=
  ∑ s : Fin 1024, Cert.Spec.hidden (V m c main_v6) (V m c main_v1) (V m c main_v2) (rowOf i r) (smpOf k s)
    * V m c main_v5 (ix2 (smpOf k s) q)

/-- What point `t` adds is the tile product of its row-tile and sample-tile. -/
theorem tile_eq (c : Dev nD) (t : Fin cfg0.N) (r q : Fin 1024) :
    ∑ s : Fin 1024, Payload.hid (iblk m c 0 t) (iblk m c 1 t) (iblk m c 2 t) r s
      * (iblk m c 3 t : Vec Ideal S1024x1024 .bf16) (ix2 s q) = tile m c (t.val / 8) (t.val % 8) r q := by
  unfold tile
  refine Finset.sum_congr rfl fun s _ => ?_
  unfold Payload.hid Cert.Spec.hidden
  rw [Blocks.blk_u, Blocks.blk_b]
  simp only [Blocks.blk_x, Blocks.blk_w]

/-- The first point of a row leaves its tile product. -/
theorem scr_first (c : Dev nD) (n : ℕ) (h : n < cfg0.N) (h0 : n % 8 = 0) (r q : Fin 1024) :
    ((outsAt0 m c n h).2 : Vec Ideal S1024x1024 .f32) (ix2 r q) = tile m c (n / 8) (n % 8) r q := by
  have h1 : ¬n % 8 = 7 := by omega
  rw [outsAt0_A m c ⟨n, h⟩ h0 h1]
  dsimp only
  rw [Pieces.scratch_A, Payload.step_apply, Payload.zero_apply, zero_add]
  exact tile_eq m c ⟨n, h⟩ r q

/-- Every other point adds its tile product to what the point before left. -/
theorem scr_next (c : Dev nD) (n : ℕ) (h : n < cfg0.N) (h0 : ¬n % 8 = 0) (r q : Fin 1024) :
    ((outsAt0 m c n h).2 : Vec Ideal S1024x1024 .f32) (ix2 r q)
      = ((outsAt0 m c (n - 1) (Nat.lt_of_le_of_lt (Nat.sub_le _ _) h)).2 : Vec Ideal S1024x1024 .f32) (ix2 r q)
        + tile m c (n / 8) (n % 8) r q := by
  by_cases h1 : n % 8 = 7
  · rw [outsAt0_C m c ⟨n, h⟩ h0 h1]
    dsimp only
    rw [Pieces.scratch_C, Payload.step_apply]
    exact congrArg (_ + ·) (tile_eq m c ⟨n, h⟩ r q)
  · rw [outsAt0_B m c ⟨n, h⟩ h0 h1]
    dsimp only
    rw [Pieces.scratch_B, Payload.step_apply]
    exact congrArg (_ + ·) (tile_eq m c ⟨n, h⟩ r q)

/-- The sum of the first `K` tile products of row-tile `i`. -/
def partialSum (c : Dev nD) (i K : ℕ) (r q : Fin 1024) : EReal := ∑ k ∈ Finset.range K, tile m c i k r q

/-- The scratch after point `n`. -/
theorem scratch_eq (c : Dev nD) : ∀ (n : ℕ) (h : n < cfg0.N) (r q : Fin 1024),
    ((outsAt0 m c n h).2 : Vec Ideal S1024x1024 .f32) (ix2 r q) = partialSum m c (n / 8) (n % 8 + 1) r q
  | 0, h, r, q => by
    rw [scr_first m c 0 h rfl r q]
    unfold partialSum
    simp only [Nat.zero_div, Nat.zero_mod, Nat.zero_add, Finset.sum_range_one]
  | n + 1, h, r, q => by
    by_cases h0 : (n + 1) % 8 = 0
    · rw [scr_first m c (n + 1) h h0 r q]
      unfold partialSum
      rw [h0, Nat.zero_add, Finset.sum_range_one]
    · rw [scr_next m c (n + 1) h h0 r q]
      have e1 : (n + 1) / 8 = n / 8 := by omega
      have e2 : (n + 1) % 8 = n % 8 + 1 := by omega
      have ih := scratch_eq c n (Nat.lt_of_succ_lt h) r q
      simp only [Nat.add_sub_cancel]
      rw [ih]
      unfold partialSum
      rw [e1, e2, Finset.sum_range_succ _ (n % 8 + 1)]

/-- The output block after the last point of a row. -/
theorem out_last (c : Dev nD) (t : Fin cfg0.N) (h1 : t.val % 8 = 7) (r q : Fin 1024) :
    ((outsAt0 m c t.val t.isLt).1 : Vec Ideal S1024x1024 .f32) (ix2 r q)
      = partialSum m c (t.val / 8) 8 r q + V m c main_arg4 (ix1 q) := by
  have h0 : ¬t.val % 8 = 0 := by omega
  have hs := scratch_eq m c t.val t.isLt r q
  rw [outsAt0_C m c t h0 h1] at hs ⊢
  dsimp only at hs ⊢
  rw [Pieces.scratch_C] at hs
  rw [Pieces.out_C, Payload.last_apply, Blocks.blk_o, hs, h1]

end Cert.KernelIdeal.Accum

end
-- ==== Proof.KFinal.lean ====
/-
  The result array after the run, as one function of the arrays the region finds.

  The output block of row-tile i is written back once, after the last sample-tile; the two blocks are rows 0 … 1023 and
  1024 … 2047 of the result, so together they cover it, and entry (n, q) ends at the sum of the eight tile products of
  row n's tile at (n mod 1024, q), plus the output bias at q.
-/
import proofs.«163091_j11536282157422_2_alg».proof.Proof.KAccum
import proofs.«163091_j11536282157422_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.TileSum Cert.KernelIdeal.Accum

variable (m : (ℓ : Loc nD τ sig) → Buf (Elt Ideal) ℓ)

/-- The row of an entry inside its row-tile, and its column. -/
def rOf (j : S2048x1024.Idx) : Fin 1024 := ⟨(j 0).val % 1024, Nat.mod_lt _ (by norm_num)⟩
def qOf (j : S2048x1024.Idx) : Fin 1024 := ⟨(j 1).val, idx2_lt1 j⟩

/-- The result array: all eight tile products of the entry's row-tile, plus the output bias. -/
def G (c : Dev nD) : S2048x1024.Idx → EReal := fun j =>
  partialSum m c ((j 0).val / 1024) 8 (rOf j) (qOf j) + V m c main_arg4 (ix1 (qOf j))

/-- `G` at the entry that is row `r` of row-tile `i`, column `q`. -/
theorem G_at (c : Dev nD) (j : S2048x1024.Idx) (i : ℕ) (r q : Fin 1024) (h0 : (j 0).val = 1024 * i + r.val)
    (h1 : (j 1).val = q.val) : G m c j = partialSum m c i 8 r q + V m c main_arg4 (ix1 q) := by
  have hr : rOf j = r := Fin.ext (by show (j 0).val % 1024 = r.val; have := r.isLt; omega)
  have hq : qOf j = q := Fin.ext h1
  have hi : (j 0).val / 1024 = i := by have := r.isLt; omega
  unfold G
  rw [hr, hq, hi]

/-- What the write-back after the last sample-tile of a row writes is that row-tile's block of `G`. -/
theorem flushed_eq (c : Dev nD) (t : Fin cfg0.N) (hf : (cfg0.win 5).flush t = true) :
    (dats m 0 c).flushed 5 t = ((cfg0.win 5).blk t).view.read (Elt Ideal) (G m c) := by
  have h7 : t.val % 8 = 7 := (flush0_5 t).mp hf
  obtain ⟨-, -, -, -, -, -, -, -, e0, e1⟩ := Blocks.idx_facts t
  rw [Value.flushed5]
  funext y
  obtain ⟨r, q, rfl⟩ : ∃ (r q : Fin 1024), y = ix2 r q := ⟨y 0, y 1, eq_ix2 y⟩
  show ((outsAt0 m c t.val t.isLt).1 : Vec Ideal S1024x1024 .f32) (ix2 r q) = G m c (((cfg0.win 5).blk t).view.emb (ix2 r q))
  rw [out_last m c t h7 r q]
  refine (G_at m c _ (t.val / 8) r q ?_ ?_).symm
  · show win0_5.index t 0 * 1024 + 1 * r.val = 1024 * (t.val / 8) + r.val
    rw [e0]; omega
  · show win0_5.index t 1 * 1024 + 1 * q.val = q.val
    rw [e1]; omega

/-- An entry is in point `t`'s output block iff each coordinate is in the block's range. -/
theorem mem_blk (t : Fin cfg0.N) (i : S2048x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v7).slice (win0_5.rect t)).set ↔ _
  rw [View.set_slice_whole, Rect.mem_set_unit]
  exact Iff.rfl

/-- The result array after the run. -/
theorem final (c : Dev nD) : (dats m 0 c).arrAt 5 cfg0.N = G m c :=
  (dats m 0 c).arrAt_eq_of_cover 5 (G m c) (fun t hf => flushed_eq m c t hf) fun i => by
    have hN : cfg0.N = 16 := N_0
    have hi0 : (i 0).val < 2048 := idx2_lt0 i
    have hi1 : (i 1).val < 1024 := idx2_lt1 i
    have ht : 8 * ((i 0).val / 1024) + 7 < cfg0.N := by rw [hN]; omega
    refine ⟨⟨8 * ((i 0).val / 1024) + 7, ht⟩, (flush0_5 _).mpr (by show (8 * ((i 0).val / 1024) + 7) % 8 = 7; omega), ?_⟩
    obtain ⟨-, -, -, -, -, -, -, -, e0, e1⟩ := Blocks.idx_facts ⟨8 * ((i 0).val / 1024) + 7, ht⟩
    rw [mem_blk]
    intro a
    match a with
    | ⟨0, _⟩ =>
      show win0_5.index ⟨8 * ((i 0).val / 1024) + 7, ht⟩ 0 * 1024 ≤ (i 0).val
        ∧ (i 0).val < win0_5.index ⟨8 * ((i 0).val / 1024) + 7, ht⟩ 0 * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_5.index ⟨8 * ((i 0).val / 1024) + 7, ht⟩ 1 * 1024 ≤ (i 1).val
        ∧ (i 1).val < win0_5.index ⟨8 * ((i 0).val / 1024) + 7, ht⟩ 1 * 1024 + 1024
      rw [e1]
      omega

end Cert.KernelIdeal.Final

end
-- ==== Proof.KHost.lean ====
/-
  The arrays the kernel's region finds, as terms of the program's arguments.

  Before the region the host normalises the sample ids (a negative id has the axis length 131072 added), marks the ids
  inside [0, 131071], gathers with them the sampled rows of the hidden weights, the sampled hidden biases and the
  sampled columns of the output weights, fills what an id outside the range selects with the fill word, rounds to the
  narrower float format and transposes the sampled columns. The three gathers are kept as they are printed: the
  reference applies the very same chains to the same arguments, so they are never opened.
-/
import proofs.«163091_j11536282157422_2_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem

namespace Cert.KernelIdeal.Host

open Cert.KernelIdeal Cert.KernelIdeal.Gen Idealize.ShloMosaic.StableHlo

/-- The sample ids normalised (a negative id plus the axis length), as a column. -/
def nid (ids : IVec S8192 32) : IVec S8192x1 32 :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 131072#32))) ids)

/-- Which normalised ids lie in [0, 131071]. -/
def inb (ids : IVec S8192 32) : IVec S8192 1 :=
  Host.reduce IntOp.andi
    (andi (cmpi .sge (nid ids) (broadcastInDim S8192x1 ![] bcast_S_S8192x1 (constantI S_ 32 0#32)))
      (cmpi .sle (nid ids) (broadcastInDim S8192x1 ![0, 1] bcast_S1x1_S8192x1_0_1
        (broadcastInDim S1x1 ![1] bcast_S1_S1x1_1 (constantI S1 32 131071#32)))))
    (constantI S_ 1 1#1) reducesTo_S8192x1_S8192_d1 h_S_

/-- The sampled rows of the hidden weights. -/
def rows (W : FVec Ideal S131072x1024 .f32) (ids : IVec S8192 32) : FVec Ideal S8192x1024 .f32 :=
  select (broadcastInDim S8192x1024 ![0] bcast_S8192_S8192x1024_0 (inb ids))
    (Host.gather gather_S131072x1024_S8192x1_S8192x1024_1_0_n_n_0_1_11024 W (nid ids))
    (broadcastInDim S8192x1024 ![] bcast_S_S8192x1024 (constant (F := Ideal) S_ .f32 0x7FC00000#32))

/-- The sampled hidden biases. -/
def vals (bh : FVec Ideal S131072 .f32) (ids : IVec S8192 32) : FVec Ideal S8192 .f32 :=
  select (inb ids)
    (Host.gather gather_S131072_S8192x1_S8192_n_0_n_n_0_1_1 bh (nid ids))
    (broadcastInDim S8192 ![] bcast_S_S8192 (constant (F := Ideal) S_ .f32 0x7FC00000#32))

/-- The sampled columns of the output weights. -/
def cols (Wo : FVec Ideal S1024x131072 .f32) (ids : IVec S8192 32) : FVec Ideal S1024x8192 .f32 :=
  select (broadcastInDim S1024x8192 ![1] bcast_S8192_S1024x8192_1 (inb ids))
    (Host.gather gather_S1024x131072_S8192x1_S1024x8192_0_1_n_n_1_1_10241 Wo (nid ids))
    (broadcastInDim S1024x8192 ![] bcast_S_S1024x8192 (constant (F := Ideal) S_ .f32 0x7FC00000#32))

variable (m : (ℓ : Loc nD τ sig) → Buf (Elt Ideal) ℓ)

/-- The region finds the input rows (rounding to the narrower format is the identity on extended reals). -/
theorem V_x (c : Dev nD) : (V m c main_v6 : S2048x1024.Idx → EReal) = m ((c : Thread nD τ).loc main_arg0) := by
  dsimp only [V]
  simp only [hostOps0, hostOps0_1, hostOps0_2, hostOps0_3, hostOps0_4, List.flatten_cons, List.flatten_nil, List.append_nil, List.cons_append, List.nil_append]
  after_results_simp
  rfl

/-- The region finds the sampled hidden rows. -/
theorem V_w (c : Dev nD) : (V m c main_v1 : S8192x1024.Idx → EReal)
    = rows (m ((c : Thread nD τ).loc main_arg1)) (m ((c : Thread nD τ).loc main_arg5)) := by
  dsimp only [V]
  simp only [hostOps0, hostOps0_1, hostOps0_2, hostOps0_3, hostOps0_4, List.flatten_cons, List.flatten_nil, List.append_nil, List.cons_append, List.nil_append]
  after_results_simp
  rfl

/-- The region finds the sampled hidden biases. -/
theorem V_b (c : Dev nD) : (V m c main_v2 : S8192.Idx → EReal)
    = vals (m ((c : Thread nD τ).loc main_arg2)) (m ((c : Thread nD τ).loc main_arg5)) := by
  dsimp only [V]
  simp only [hostOps0, hostOps0_1, hostOps0_2, hostOps0_3, hostOps0_4, List.flatten_cons, List.flatten_nil, List.append_nil, List.cons_append, List.nil_append]
  after_results_simp
  rfl

/-- The region finds the sampled output columns, transposed to sample by class. -/
theorem V_u (c : Dev nD) : (V m c main_v5 : S8192x1024.Idx → EReal)
    = transpose S8192x1024 [1, 0] (cols (m ((c : Thread nD τ).loc main_arg3)) (m ((c : Thread nD τ).loc main_arg5)))
        transposes_S1024x8192_S8192x1024_1_0 := by
  dsimp only [V]
  simp only [hostOps0, hostOps0_1, hostOps0_2, hostOps0_3, hostOps0_4, List.flatten_cons, List.flatten_nil, List.append_nil, List.cons_append, List.nil_append]
  after_results_simp
  rfl

end Cert.KernelIdeal.Host

end
-- ==== Proof.KWhole.lean ====
/-
  The kernel program's result is the shared specification of its arguments.

  The eight tile products of a row-tile are the eight consecutive stretches of one sum over all 8192 samples; row r of
  row-tile i is row 1024·i + r of the input; the sample-by-class array the region finds is the transpose of the
  sampled columns. Only the grouping of a finite sum of extended reals changes, which needs no finiteness.
-/
import proofs.«163091_j11536282157422_2_alg».proof.Proof.KFinal
import proofs.«163091_j11536282157422_2_alg».proof.Proof.KHost
import Idealize.ShloMosaic.Lib.ValueLayout

noncomputable section

open Idealize.ShloMosaic Idealize.ShloMosaic.TcCoe Idealize.SL.Sem Idealize.ShloMosaic.ValueIdx

namespace Cert.KernelIdeal.Whole

open Cert.KernelIdeal Cert.KernelIdeal.Gen Cert.TileSum Cert.KernelIdeal.Accum Cert.KernelIdeal.Final

variable (m : (ℓ : Loc nD τ sig) → Buf (Elt Ideal) ℓ) (ρ : Dev nD → PrngReg)

/-- The specification at the program's arguments: the input rows, the three sampled arrays, the output bias. -/
abbrev spec (c : Dev nD) : S2048x1024.Idx → EReal :=
  Cert.Spec.out (m ((c : Thread nD τ).loc main_arg0))
    (Host.rows (m ((c : Thread nD τ).loc main_arg1)) (m ((c : Thread nD τ).loc main_arg5)))
    (Host.vals (m ((c : Thread nD τ).loc main_arg2)) (m ((c : Thread nD τ).loc main_arg5)))
    (Host.cols (m ((c : Thread nD τ).loc main_arg3)) (m ((c : Thread nD τ).loc main_arg5)))
    (m ((c : Thread nD τ).loc main_arg4))

/-- The result array after the run is the specification. -/
theorem G_eq (c : Dev nD) : G m c = spec m c := by
  funext j
  have hrow : rowOf ((j 0).val / 1024) (rOf j) = j 0 := rowOf_div_mod (j 0)
  have hq : qOf j = j 1 := Fin.ext rfl
  have hs := sum_tiles (fun s : Fin 8192 => Cert.Spec.hidden (V m c main_v6) (V m c main_v1) (V m c main_v2)
    (rowOf ((j 0).val / 1024) (rOf j)) s * V m c main_v5 (ix2 s (qOf j)))
  beta_reduce at hs
  unfold G partialSum tile spec Cert.Spec.out Cert.Spec.entry
  rw [hs, V_main_arg4 m c, hrow, hq, Host.V_x, Host.V_w, Host.V_b, Host.V_u]
  refine congrArg (· + _) (Finset.sum_congr rfl fun s _ => ?_)
  exact congrArg (HMul.hMul _)
    (transpose_ix2_apply (Host.cols (m ((c : Thread nD τ).loc main_arg3)) (m ((c : Thread nD τ).loc main_arg5)))
      transposes_S1024x8192_S8192x1024_1_0 s (j 1))

/-- The kernel program's run: the result array at the specification, the arguments unchanged. -/
theorem run : θ_run defs (onTc (τ := τ) (main (F := Ideal))) ⟨m, fun _ => 0, ρ⟩ fun r => ∀ c : Dev nD,
      r.2.mem ((c : Thread nD τ).loc main_v7) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (G_eq m c)), (h c).2⟩)
    (Cert.KernelIdeal.Value.run_blocks m ρ)

end Cert.KernelIdeal.Whole

end
-- ==== Proof.RefOps.lean ====
/-
  The reference program's @main as one straight line of its 79 host operations — the bodies of the functions it calls
  written out at each call over that call's buffers — and its run: every weakly fair execution terminates with every
  buffer at the fold of the operations' results over the launch contents.
-/
import proofs.«163091_j11536282157422_2_alg».proof.Proof.Gen.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's operations in order, each call replaced by its callee's lines over the call's buffers. -/
abbrev ops : List (HloOp τ sig (Elt F)) :=
  [
    TRef.nullary main_call0.c (constantI S_ 32 0#32),
    TRef.unary main_call0.c main_call0.v0 (broadcastInDim S8192 ![] bcast_S_S8192),
    TRef.binary (.of main_arg5) main_call0.v0 main_call0.v1 (cmpi .slt),
    TRef.nullary main_call0.c_0 (constantI S_ 32 131072#32),
    TRef.unary main_call0.c_0 main_call0.v2 (broadcastInDim S8192 ![] bcast_S_S8192),
    TRef.binary (.of main_arg5) main_call0.v2 main_call0.v3 addi,
    TRef.ternary main_call0.v1 main_call0.v3 (.of main_arg5) main_call0.call0.v0 select,
    TRef.unary main_call0.call0.v0 main_call0.v5 (broadcastInDim S8192x1 ![0] bcast_S8192_S8192x1_0),
    TRef.nullary main_call0.c_1 (constantI S1 32 131071#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S131072x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    TRef.nullary main_call1.c (constantI S_ 32 0#32),
    TRef.unary main_call1.c main_call1.v0 (broadcastInDim S8192 ![] bcast_S_S8192),
    TRef.binary (.of main_arg5) main_call1.v0 main_call1.v1 (cmpi .slt),
    TRef.nullary main_call1.c_0 (constantI S_ 32 131072#32),
    TRef.unary main_call1.c_0 main_call1.v2 (broadcastInDim S8192 ![] bcast_S_S8192),
    TRef.binary (.of main_arg5) main_call1.v2 main_call1.v3 addi,
    TRef.ternary main_call1.v1 main_call1.v3 (.of main_arg5) main_call1.call0.v0 select,
    TRef.unary main_call1.call0.v0 main_call1.v5 (broadcastInDim S8192x1 ![0] bcast_S8192_S8192x1_0),
    TRef.nullary main_call1.c_1 (constantI S1 32 131071#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg2) main_call1.v5 main_call1.v13 (fun x i => Host.gather gather_S131072_S8192x1_S8192_n_0_n_n_0_1_1 x i),
    TRef.nullary main_call1.cst (constant S_ .f32 0x7FC00000#32),
    TRef.unary main_call1.cst main_call1.v14 (broadcastInDim S8192 ![] bcast_S_S8192),
    TRef.ternary main_call1.v12 main_call1.v13 main_call1.v14 main_call1.v15 select,
    binary main_arg0 main_v0 main_v2 ((fun l r => Host.dotGeneral dot_S2048x1024_S8192x1024_S2048x8192_1_1_0_0_n_n none l r) : (⟨S2048x1024, .f32⟩ : BufTy).Contents (Elt F) → (⟨S8192x1024, .f32⟩ : BufTy).Contents (Elt F) → (⟨S2048x8192, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v3 main_v4 (broadcastInDim S2048x8192 ![0, 1] bcast_S1x8192_S2048x8192_0_1 : (⟨S1x8192, .f32⟩ : BufTy).Contents (Elt F) → (⟨S2048x8192, .f32⟩ : BufTy).Contents (Elt F)),
    binary main_v2 main_v4 main_v5 (addf : (⟨S2048x8192, .f32⟩ : BufTy).Contents (Elt F) → (⟨S2048x8192, .f32⟩ : BufTy).Contents (Elt F) → (⟨S2048x8192, .f32⟩ : BufTy).Contents (Elt F)),
    TRef.nullary main_call2.cst (constant S_ .f32 0x00000000#32),
    TRef.unary main_call2.cst main_call2.v0 (broadcastInDim S2048x8192 ![] bcast_S_S2048x8192),
    TRef.binary (.of main_v5) main_call2.v0 main_call2.v1 maximumf,
    TRef.nullary main_call3.c (constantI S_ 32 0#32),
    TRef.unary main_call3.c main_call3.v0 (broadcastInDim S8192 ![] bcast_S_S8192),
    TRef.binary (.of main_arg5) main_call3.v0 main_call3.v1 (cmpi .slt),
    TRef.nullary main_call3.c_0 (constantI S_ 32 131072#32),
    TRef.unary main_call3.c_0 main_call3.v2 (broadcastInDim S8192 ![] bcast_S_S8192),
    TRef.binary (.of main_arg5) main_call3.v2 main_call3.v3 addi,
    TRef.ternary main_call3.v1 main_call3.v3 (.of main_arg5) main_call3.call0.v0 select,
    TRef.unary main_call3.call0.v0 main_call3.v5 (broadcastInDim S8192x1 ![0] bcast_S8192_S8192x1_0),
    TRef.nullary main_call3.c_1 (constantI S1 32 131071#32),
    TRef.nullary main_call3.c_2 (constantI S_ 32 0#32),
    TRef.unary main_call3.c_2 main_call3.v6 (broadcastInDim S8192x1 ![] bcast_S_S8192x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S8192x1 ![0, 1] bcast_S1x1_S8192x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1_S8192_d1 h_S_),
    TRef.binary (.of main_arg3) main_call3.v5 main_call3.v13 (fun x i => Host.gather gather_S1024x131072_S8192x1_S1024x8192_0_1_n_n_1_1_10241 x i),
    TRef.unary main_call3.v12 main_call3.v14 (broadcastInDim S1024x8192 ![1] bcast_S8192_S1024x8192_1),
    TRef.nullary main_call3.cst (constant S_ .f32 0x7FC00000#32),
    TRef.unary main_call3.cst main_call3.v15 (broadcastInDim S1024x8192 ![] bcast_S_S1024x8192),
    TRef.ternary main_call3.v14 main_call3.v13 main_call3.v15 main_call3.v16 select,
    binary main_v6 main_v7 main_v8 ((fun l r => Host.dotGeneral dot_S2048x8192_S1024x8192_S2048x1024_1_1_0_0_n_n none l r) : (⟨S2048x8192, .f32⟩ : BufTy).Contents (Elt F) → (⟨S1024x8192, .f32⟩ : BufTy).Contents (Elt F) → (⟨S2048x1024, .f32⟩ : BufTy).Contents (Elt F)),
    unary main_arg4 main_v9 (broadcastInDim S1x1024 ![1] bcast_S1024_S1x1024_1 : (⟨S1024, .f32⟩ : BufTy).Contents (Elt F) → (⟨S1x1024, .f32⟩ : BufTy).Contents (Elt F)),
    unary main_v9 main_v10 (broadcastInDim S2048x1024 ![0, 1] bcast_S1x1024_S2048x1024_0_1 : (⟨S1x1024, .f32⟩ : BufTy).Contents (Elt F) → (⟨S2048x1024, .f32⟩ : BufTy).Contents (Elt F)),
    binary main_v8 main_v10 main_v11 (addf : (⟨S2048x1024, .f32⟩ : BufTy).Contents (Elt F) → (⟨S2048x1024, .f32⟩ : BufTy).Contents (Elt F) → (⟨S2048x1024, .f32⟩ : BufTy).Contents (Elt F)) ]

set_option maxRecDepth 4096 in
set_option maxHeartbeats 2000000 in
/-- @main is that straight line: the functions' definitions unfolded at their calls, and sequencing re-associated. -/
theorem main_eq (c : Dev nD) : main (F := F) c = seq ops := by
  simp only [main, fn_take.body, fn_take_0.body, fn_take_1.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., unary_bufs_sub ..,
    binary_bufs_sub ..⟩

/-- From any memory with zero counters: every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefDefs.lean ====
/-
  The three sampled arrays of the reference, as pure terms of the weights and the sample indices.

  Each `take` of the reference normalises an index (a negative one is shifted up by the axis length), gathers at the
  normalised index, and keeps the gathered element where the normalised index lies inside the axis, writing the
  float word 0x7FC00000 elsewhere. The three terms below are those chains, operation for operation, as functions of the
  operand and the index vector.
-/
import proofs.«163091_j11536282157422_2_alg».proof.Proof.Gen.ReferenceIdeal
import Idealize.ShloMosaic.PureOps.Ideal

noncomputable section

namespace Cert.RefSide

open Idealize.ShloMosaic Cert.ReferenceIdeal
open Cert.ReferenceIdeal.Facts₀ Cert.ReferenceIdeal.Facts

/-- The normalised sample indices as a column: `ids + 131072` where `ids < 0`, else `ids`, laid out [8192, 1]. -/
abbrev normIdx [Cert.ReferenceIdeal.Facts] (ids : IVec S8192 32) : IVec S8192x1 32 :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 131072#32))) ids)

/-- Where the normalised index lies in [0, 131071]: the conjunction over the (one-element) index vector. -/
abbrev inBounds [Cert.ReferenceIdeal.Facts] (ids : IVec S8192 32) : IVec S8192 1 :=
  Host.reduce IntOp.andi
    (andi (cmpi .sge (normIdx ids) (broadcastInDim S8192x1 ![] bcast_S_S8192x1 (constantI S_ 32 0#32)))
      (cmpi .sle (normIdx ids)
        (broadcastInDim S8192x1 ![0, 1] bcast_S1x1_S8192x1_0_1 (broadcastInDim S1x1 ![1] bcast_S1_S1x1_1 (constantI S1 32 131071#32)))))
    (constantI S_ 1 1#1) reducesTo_S8192x1_S8192_d1 h_S_

/-- The sampled rows of the hidden weights, [8192, 1024]. -/
def rows [Cert.ReferenceIdeal.Facts] (W : FVec Ideal S131072x1024 .f32) (ids : IVec S8192 32) : FVec Ideal S8192x1024 .f32 :=
  select (broadcastInDim S8192x1024 ![0] bcast_S8192_S8192x1024_0 (inBounds ids))
    (Host.gather gather_S131072x1024_S8192x1_S8192x1024_1_0_n_n_0_1_11024 W (normIdx ids))
    (broadcastInDim S8192x1024 ![] bcast_S_S8192x1024 (constant (F := Ideal) S_ .f32 0x7FC00000#32))

/-- The sampled hidden biases, [8192]. -/
def vals [Cert.ReferenceIdeal.Facts] (bh : FVec Ideal S131072 .f32) (ids : IVec S8192 32) : FVec Ideal S8192 .f32 :=
  select (inBounds ids)
    (Host.gather gather_S131072_S8192x1_S8192_n_0_n_n_0_1_1 bh (normIdx ids))
    (broadcastInDim S8192 ![] bcast_S_S8192 (constant (F := Ideal) S_ .f32 0x7FC00000#32))

/-- The sampled columns of the output weights, [1024, 8192]. -/
def cols [Cert.ReferenceIdeal.Facts] (Wo : FVec Ideal S1024x131072 .f32) (ids : IVec S8192 32) : FVec Ideal S1024x8192 .f32 :=
  select (broadcastInDim S1024x8192 ![1] bcast_S8192_S1024x8192_1 (inBounds ids))
    (Host.gather gather_S1024x131072_S8192x1_S1024x8192_0_1_n_n_1_1_10241 Wo (normIdx ids))
    (broadcastInDim S1024x8192 ![] bcast_S_S1024x8192 (constant (F := Ideal) S_ .f32 0x7FC00000#32))

/-- The reference's result as a term of its arguments: the product of `X` with the sampled rows plus the sampled bias row,
    rectified, times the sampled columns, plus the output bias row. -/
def outTerm [Cert.ReferenceIdeal.Facts] (X : FVec Ideal S2048x1024 .f32) (W : FVec Ideal S131072x1024 .f32) (bh : FVec Ideal S131072 .f32)
    (Wo : FVec Ideal S1024x131072 .f32) (bo : FVec Ideal S1024 .f32) (ids : IVec S8192 32) : FVec Ideal S2048x1024 .f32 :=
  addf
    (Host.dotGeneral dot_S2048x8192_S1024x8192_S2048x1024_1_1_0_0_n_n none
      (maximumf
        (addf (Host.dotGeneral dot_S2048x1024_S8192x1024_S2048x8192_1_1_0_0_n_n none X (rows W ids))
          (broadcastInDim S2048x8192 ![0, 1] bcast_S1x8192_S2048x8192_0_1 (broadcastInDim S1x8192 ![1] bcast_S8192_S1x8192_1 (vals bh ids))))
        (broadcastInDim S2048x8192 ![] bcast_S_S2048x8192 (constant (F := Ideal) S_ .f32 0x00000000#32)))
      (cols Wo ids))
    (broadcastInDim S2048x1024 ![0, 1] bcast_S1x1024_S2048x1024_0_1 (broadcastInDim S1x1024 ![1] bcast_S1024_S1x1024_1 bo))

end Cert.RefSide

end
-- ==== Proof.RefVal.lean ====
/-
  The reference's buffers after its 79 operations: the result buffer holds one pure term of the six argument arrays,
  and the argument buffers hold what they held.
-/
import proofs.«163091_j11536282157422_2_alg».proof.Proof.RefOps
import proofs.«163091_j11536282157422_2_alg».proof.Proof.RefDefs

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

-- the fold is unrolled and each operation's result read at the buffer it writes; what is left differs from `outTerm` only
-- by the identity transports of the typed references, so the two sides agree by computation; the reductions and gathers
-- are kept folded meanwhile (the equation never looks inside them)
attribute [local irreducible] Host.reduce Host.gather in
set_option maxRecDepth 8192 in
set_option maxHeartbeats 1000000 in
/-- The result buffer after the operations is `outTerm` of the launch contents of the six arguments. -/
theorem out_eq (V : Valuation τ sig (Elt Ideal)) :
    after (ops (F := Ideal)) V (main_v11 : DevRef τ sig)
      = outTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 1000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 1000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 1000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 1000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 1000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 1000000 in
theorem arg5_eq (V : Valuation τ sig (Elt Ideal)) :
    after (ops (F := Ideal)) V (main_arg5 : DevRef τ sig) = V (main_arg5 : DevRef τ sig) := by
  after_results_simp

end Cert.RefSide

end
-- ==== Proof.RefEntry.lean ====
/-
  The reference's result term read at an entry: it is the shared specification's entry.

  Each layer is read at an index: the two sums of an elementwise add, the rectifier as a maximum, a bias vector broadcast
  along the rows as the vector's entry at the column, a scalar broadcast as the scalar, and each of the two products —
  both contract the second axis of both operands — as the sum over that axis of the operands' entries.
-/
import proofs.«163091_j11536282157422_2_alg».proof.Proof.RefDefs
import proofs.«163091_j11536282157422_2_alg».proof.Proof.Spec
import proofs.«163091_j11536282157422_2_alg».proof.Proof.LibPlainDot
import Idealize.ShloMosaic.Lib.Pipeline.Value

noncomputable section

namespace Cert.RefSide

open Idealize.ShloMosaic Idealize.ShloMosaic.ValueIdx Cert.ReferenceIdeal
open Cert.ReferenceIdeal.Facts₀ Cert.ReferenceIdeal.Facts

variable [Cert.ReferenceIdeal.Facts]

/-- A vector over the 8192 samples, broadcast to a row and then down the 2048 rows, read at (n, s): its entry at s. -/
theorem biasRow8192_apply (b : FVec Ideal S8192 .f32) (n : Fin 2048) (s : Fin 8192) :
    broadcastInDim S2048x8192 ![0, 1] bcast_S1x8192_S2048x8192_0_1 (broadcastInDim S1x8192 ![1] bcast_S8192_S1x8192_1 b) (ix2 n s)
      = b (ix1 s) := by
  rw [broadcastInDim_apply ![0, 1] bcast_S1x8192_S2048x8192_0_1 _ (ix2 n s) (ix2 (0 : Fin 1) s) (fun a => by fin_cases a <;> rfl),
    broadcastInDim_apply ![1] bcast_S8192_S1x8192_1 b (ix2 (0 : Fin 1) s) (ix1 s) (fun a => by fin_cases a <;> rfl)]

/-- A vector over the 1024 outputs, broadcast to a row and then down the 2048 rows, read at (n, c): its entry at c. -/
theorem biasRow1024_apply (b : FVec Ideal S1024 .f32) (n : Fin 2048) (c : Fin 1024) :
    broadcastInDim S2048x1024 ![0, 1] bcast_S1x1024_S2048x1024_0_1 (broadcastInDim S1x1024 ![1] bcast_S1024_S1x1024_1 b) (ix2 n c)
      = b (ix1 c) := by
  rw [broadcastInDim_apply ![0, 1] bcast_S1x1024_S2048x1024_0_1 _ (ix2 n c) (ix2 (0 : Fin 1) c) (fun a => by fin_cases a <;> rfl),
    broadcastInDim_apply ![1] bcast_S1024_S1x1024_1 b (ix2 (0 : Fin 1) c) (ix1 c) (fun a => by fin_cases a <;> rfl)]

/-- The rectifier's zero, broadcast from a scalar, read anywhere: the scalar's float word. -/
theorem zero_apply (n : Fin 2048) (s : Fin 8192) :
    broadcastInDim S2048x8192 ![] bcast_S_S2048x8192 (constant (F := Ideal) S_ .f32 0x00000000#32) (ix2 n s)
      = Ideal.ofBits .f32 0x00000000#32 := rfl

/-- The first product at (n, s): the sum over the 1024 features of `X[n, d] * A[s, d]`. -/
theorem dot1_apply (X : FVec Ideal S2048x1024 .f32) (A : FVec Ideal S8192x1024 .f32) (n : Fin 2048) (s : Fin 8192) :
    Host.dotGeneral dot_S2048x1024_S8192x1024_S2048x8192_1_1_0_0_n_n none X A (ix2 n s)
      = ∑ d : Fin 1024, X (ix2 n d) * A (ix2 s d) := by
  simp only [Host.dotGeneral]
  exact Cert.LibPlainDot.dotGeneral_apply dot_S2048x1024_S8192x1024_S2048x8192_1_1_0_0_n_n none .single 1024 rfl rfl X A (ix2 n s)
    (fun d => ix2 n d) (fun d => ix2 s d)
    (fun q => Cert.LibPlainDot.ext2 _ _ rfl rfl) (fun q => Cert.LibPlainDot.ext2 _ _ rfl rfl)

/-- The second product at (n, c): the sum over the 8192 samples of `H[n, s] * B[c, s]`. -/
theorem dot2_apply (H : FVec Ideal S2048x8192 .f32) (B : FVec Ideal S1024x8192 .f32) (n : Fin 2048) (c : Fin 1024) :
    Host.dotGeneral dot_S2048x8192_S1024x8192_S2048x1024_1_1_0_0_n_n none H B (ix2 n c)
      = ∑ s : Fin 8192, H (ix2 n s) * B (ix2 c s) := by
  simp only [Host.dotGeneral]
  exact Cert.LibPlainDot.dotGeneral_apply dot_S2048x8192_S1024x8192_S2048x1024_1_1_0_0_n_n none .single 8192 rfl rfl H B (ix2 n c)
    (fun s => ix2 n s) (fun s => ix2 c s)
    (fun q => Cert.LibPlainDot.ext2 _ _ rfl rfl) (fun q => Cert.LibPlainDot.ext2 _ _ rfl rfl)

/-- The hidden layer at (n, s) is the specification's hidden activation. -/
theorem hidden_apply (X : FVec Ideal S2048x1024 .f32) (A : FVec Ideal S8192x1024 .f32) (b : FVec Ideal S8192 .f32)
    (n : Fin 2048) (s : Fin 8192) :
    maximumf
        (addf (Host.dotGeneral dot_S2048x1024_S8192x1024_S2048x8192_1_1_0_0_n_n none X A)
          (broadcastInDim S2048x8192 ![0, 1] bcast_S1x8192_S2048x8192_0_1 (broadcastInDim S1x8192 ![1] bcast_S8192_S1x8192_1 b)))
        (broadcastInDim S2048x8192 ![] bcast_S_S2048x8192 (constant (F := Ideal) S_ .f32 0x00000000#32)) (ix2 n s)
      = Cert.Spec.hidden X A b n s := by
  rw [maximumf_apply, addf_apply, biasRow8192_apply, zero_apply, dot1_apply]
  rfl

/-- The whole term over any three sampled arrays is the specification's result array. -/
theorem term_eq_spec (X : FVec Ideal S2048x1024 .f32) (A : FVec Ideal S8192x1024 .f32) (b : FVec Ideal S8192 .f32)
    (B : FVec Ideal S1024x8192 .f32) (bo : FVec Ideal S1024 .f32) :
    addf
        (Host.dotGeneral dot_S2048x8192_S1024x8192_S2048x1024_1_1_0_0_n_n none
          (maximumf
            (addf (Host.dotGeneral dot_S2048x1024_S8192x1024_S2048x8192_1_1_0_0_n_n none X A)
              (broadcastInDim S2048x8192 ![0, 1] bcast_S1x8192_S2048x8192_0_1 (broadcastInDim S1x8192 ![1] bcast_S8192_S1x8192_1 b)))
            (broadcastInDim S2048x8192 ![] bcast_S_S2048x8192 (constant (F := Ideal) S_ .f32 0x00000000#32)))
          B)
        (broadcastInDim S2048x1024 ![0, 1] bcast_S1x1024_S2048x1024_0_1 (broadcastInDim S1x1024 ![1] bcast_S1024_S1x1024_1 bo))
      = Cert.Spec.out X A b B bo := by
  funext i
  obtain ⟨n, c, rfl⟩ : ∃ (n : Fin 2048) (c : Fin 1024), i = ix2 n c := ⟨i 0, i 1, eq_ix2 i⟩
  rw [addf_apply, biasRow1024_apply, dot2_apply]
  show _ = Cert.Spec.entry X A b B bo n c
  unfold Cert.Spec.entry
  refine congrArg (· + bo (ix1 c)) (Finset.sum_congr rfl fun s _ => ?_)
  rw [hidden_apply]

/-- The reference's result term is the specification's result array over the three sampled arrays. -/
theorem outTerm_eq_spec (X : FVec Ideal S2048x1024 .f32) (W : FVec Ideal S131072x1024 .f32) (bh : FVec Ideal S131072 .f32)
    (Wo : FVec Ideal S1024x131072 .f32) (bo : FVec Ideal S1024 .f32) (ids : IVec S8192 32) :
    outTerm X W bh Wo bo ids = Cert.Spec.out X (rows W ids) (vals bh ids) (cols Wo ids) bo :=
  term_eq_spec X (rows W ids) (vals bh ids) (cols Wo ids) bo

end Cert.RefSide

end
-- ==== Proof.RefRun.lean ====
/-
  The reference's run with its result named by the shared specification: every weakly fair execution of the reference
  terminates with the result buffer holding the specification's array over the three sampled arrays, and the six
  argument buffers unchanged.
-/
import proofs.«163091_j11536282157422_2_alg».proof.Proof.RefVal
import proofs.«163091_j11536282157422_2_alg».proof.Proof.RefEntry

noncomputable section

namespace Cert.RefSide

open Cert.ReferenceIdeal Idealize.ShloMosaic Idealize.ShloMosaic.TcCoe Idealize.SL.Sem Idealize.ShloMosaic.StableHlo

/-- From any memory with zero counters: every weakly fair execution of the reference terminates; its result buffer then
    holds the specification's array of `X`, the sampled rows, biases and columns, and the output bias; the arguments are
    unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v11)
        = Cert.Spec.out (m ((c.tc : Thread Cert.ReferenceIdeal.nD Cert.ReferenceIdeal.τ).loc Cert.ReferenceIdeal.main_arg0))
            (rows (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)))
            (vals (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg5)))
            (cols (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ h c => ⟨(h c main_v11).trans ((out_eq (launchContents m c)).trans (outTerm_eq_spec _ _ _ _ _ _)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_main m ρ)

end Cert.RefSide

end
-- ==== Proof.Bridge.lean ====
/-
  The two programs sample with one and the same chain of host operations: the normalised ids, the in-range mask, the
  gather and the fill are spelled identically in both, over shape and dimension records that are equal field by field.
  So the sampled rows, biases and columns of the kernel program and of the reference are the same functions of the
  same arguments; the gathers are compared as they stand and never opened.
-/
import proofs.«163091_j11536282157422_2_alg».proof.Proof.KHost
import proofs.«163091_j11536282157422_2_alg».proof.Proof.RefDefs

noncomputable section

open Idealize.ShloMosaic

namespace Cert.Bridge

attribute [local irreducible] Host.reduce Host.gather in
theorem rows_eq (W : FVec Ideal Cert.KernelIdeal.S131072x1024 .f32) (ids : IVec Cert.KernelIdeal.S8192 32) :
    Cert.RefSide.rows W ids = Cert.KernelIdeal.Host.rows W ids := rfl

attribute [local irreducible] Host.reduce Host.gather in
theorem vals_eq (bh : FVec Ideal Cert.KernelIdeal.S131072 .f32) (ids : IVec Cert.KernelIdeal.S8192 32) :
    Cert.RefSide.vals bh ids = Cert.KernelIdeal.Host.vals bh ids := rfl

attribute [local irreducible] Host.reduce Host.gather in
theorem cols_eq (Wo : FVec Ideal Cert.KernelIdeal.S1024x131072 .f32) (ids : IVec Cert.KernelIdeal.S8192 32) :
    Cert.RefSide.cols Wo ids = Cert.KernelIdeal.Host.cols Wo ids := rfl

end Cert.Bridge

end
-- ==== Proof.lean ====
/-
  The certificate's proof. Both programs compute, entry (n, c),

      (∑ s < 8192, max (∑ d < 1024, X[n, d] · A[s, d] + b[s]) 0 · B[c, s]) + b_out[c]

  over the sampled rows A, biases b and columns B of the weights (Proof/Spec.lean). The reference computes it with two
  whole matrix products (Proof/RefRun.lean). The kernel walks a 2 × 8 grid of row-tiles and sample-tiles, keeps the sum
  over the sample-tiles met so far in a scratch block, and writes a row-tile's block of the result after its last
  sample-tile (Proof/KWhole.lean): the same sum, grouped into eight consecutive stretches. The two programs sample the
  weights with the same chain of host operations (Proof/Bridge.lean). No finiteness of the inputs is used. The ideal
  pass rewrote nothing, so the kernel's idealization is its own text read over the extended reals.
-/
import proofs.«163091_j11536282157422_2_alg».proof.Defs
import proofs.«163091_j11536282157422_2_alg».proof.Proof.Gen.Kernel
import proofs.«163091_j11536282157422_2_alg».proof.Proof.Gen.Kernel.Skeleton
import proofs.«163091_j11536282157422_2_alg».proof.Proof.Gen.Kernel.Launch
import proofs.«163091_j11536282157422_2_alg».proof.Proof.Gen.Kernel.Points
import proofs.«163091_j11536282157422_2_alg».proof.Proof.Gen.Kernel.Frame
import proofs.«163091_j11536282157422_2_alg».proof.Proof.Gen.KernelIdeal
import proofs.«163091_j11536282157422_2_alg».proof.Proof.Gen.KernelIdeal.Skeleton
import proofs.«163091_j11536282157422_2_alg».proof.Proof.Gen.KernelIdeal.Launch
import proofs.«163091_j11536282157422_2_alg».proof.Proof.Gen.KernelIdeal.Points
import proofs.«163091_j11536282157422_2_alg».proof.Proof.Gen.KernelIdeal.Frame
import proofs.«163091_j11536282157422_2_alg».proof.Proof.Gen.KernelIdeal.Value
import proofs.«163091_j11536282157422_2_alg».proof.Proof.Gen.ReferenceIdeal
import proofs.«163091_j11536282157422_2_alg».proof.Proof.Gen.Pre_finite_inputs
import proofs.«163091_j11536282157422_2_alg».proof.Proof.KWhole
import proofs.«163091_j11536282157422_2_alg».proof.Proof.RefRun
import proofs.«163091_j11536282157422_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.RefSide.run m ρ)

/-- The ideal pass rewrote no operation. -/
theorem preserves : Cert.preserves_Kernel_KernelIdeal := trivial

/-- From memories agreeing on the arguments both programs end at the specification of those arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.RefSide.run m' ρ')
  obtain ⟨a0, a1, a2, a3, a4, a5⟩ := hagree c
  rw [a0, a1, a2, a3, a4, a5, Cert.Bridge.rows_eq, Cert.Bridge.vals_eq, Cert.Bridge.cols_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
